-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S48x16 1) : IVec S_ 1 :=
  let main_c_5 : IVec S_ 1 := constantI S_ 1 1#1
  let main_v17 : IVec S_ 1 := (fun x v => Host.reduce IntOp.andi x v reducesTo_S48x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x48 .f32) (main_arg3 : FVec F S48 .f32) (main_arg4 : FVec F S48x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x48 .f32 := Host.absf main_arg2
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x16 .f32 := Host.absf main_arg4
  let main_cst_4 : FVec F S_ .f32 := constant S_ .f32 0x7F800000#32
  let main_v15 : FVec F S48x16 .f32 := broadcastInDim S48x16 ![] bcast_S_S48x16 main_cst_4
  let main_v16 : IVec S48x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S20000x128 : Shape := ⟨2, ![20000, 128]⟩
abbrev S20000x48 : Shape := ⟨2, ![20000, 48]⟩
abbrev S1700000x48 : Shape := ⟨2, ![1700000, 48]⟩
abbrev S1x48 : Shape := ⟨2, ![1, 48]⟩
abbrev S100000x16 : Shape := ⟨2, ![100000, 16]⟩
abbrev S20000x16 : Shape := ⟨2, ![20000, 16]⟩
abbrev S1700000x16 : Shape := ⟨2, ![1700000, 16]⟩
abbrev S1x16 : Shape := ⟨2, ![1, 16]⟩
abbrev S20000 : Shape := ⟨1, ![20000]⟩
abbrev S20000x1 : Shape := ⟨2, ![20000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x48, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x48, .f32⟩
  | .hbm, ⟨56, _⟩ => ⟨S1700000x1, .f32⟩
  | .hbm, ⟨57, _⟩ => ⟨S1700000x48, .f32⟩
  | .hbm, ⟨58, _⟩ => ⟨S1700000x48, .f32⟩
  | .hbm, ⟨59, _⟩ => ⟨S_, .f32⟩
  | .hbm, ⟨60, _⟩ => ⟨S100000x48, .f32⟩
  | .hbm, ⟨61, _⟩ => ⟨S1700000x1, .i32⟩
  | .hbm, ⟨62, _⟩ => ⟨S100000x48, .f32⟩
  | .hbm, ⟨63, _⟩ => ⟨S1x48, .f32⟩
  | .hbm, ⟨64, _⟩ => ⟨S100000x16, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x16, .f32⟩
  | .hbm, ⟨74, _⟩ => ⟨S1700000x1, .f32⟩
  | .hbm, ⟨75, _⟩ => ⟨S1700000x16, .f32⟩
  | .hbm, ⟨76, _⟩ => ⟨S1700000x16, .f32⟩
  | .hbm, ⟨77, _⟩ => ⟨S_, .f32⟩
  | .hbm, ⟨78, _⟩ => ⟨S100000x16, .f32⟩
  | .hbm, ⟨79, _⟩ => ⟨S1700000x1, .i32⟩
  | .hbm, ⟨80, _⟩ => ⟨S100000x16, .f32⟩
  | .hbm, ⟨81, _⟩ => ⟨S1x16, .f32⟩
  | .hbm, ⟨82, _⟩ => ⟨S100000x16, .f32⟩
  | .local _ .vmem, ⟨0, _⟩ => ⟨S20000x128, .f32⟩
  | .local _ .vmem, ⟨1, _⟩ => ⟨S20000x128, .f32⟩
  | .local _ .vmem, ⟨2, _⟩ => ⟨S128x48, .f32⟩
  | .local _ .vmem, ⟨3, _⟩ => ⟨S20000x48, .f32⟩
  | .local _ .vmem, ⟨4, _⟩ => ⟨S20000x48, .f32⟩
  | .local _ .vmem, ⟨5, _⟩ => ⟨S20000x48, .f32⟩
  | .local _ .vmem, ⟨6, _⟩ => ⟨S20000x48, .f32⟩
  | .local _ .vmem, ⟨7, _⟩ => ⟨S1x48, .f32⟩
  | .local _ .vmem, ⟨8, _⟩ => ⟨S48x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S20000x16, .f32⟩
  | .local _ .vmem, ⟨13, _⟩ => ⟨S1x16, .f32⟩
  | .local _ .vmem, ⟨14, _⟩ => ⟨S20000x16, .f32⟩
  | .local _ .vmem, ⟨15, _⟩ => ⟨S20000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S20000x48_S20000x48_0_0 : ∀ a, (![0, 0] : Fin 2 → Nat) a + S20000x48.size a ≤ S20000x48.size a
  h_S20000x48 : 0 < S20000x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  shapeCasts_S20000x48_S20000x48 : S20000x48.ShapeCasts S20000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S20000x48 : S1x48.Broadcasts S20000x48
  inb_S48x16_S48x16_0_0 : ∀ a, (![0, 0] : Fin 2 → Nat) a + S48x16.size a ≤ S48x16.size a
  h_S48x16 : 0 < S48x16.numel
  inb_S20000x16_S20000x16_0_0 : ∀ a, (![0, 0] : Fin 2 → Nat) a + S20000x16.size a ≤ S20000x16.size a
  h_S20000x16 : 0 < S20000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  reduces_S20000x16_S20000 : S20000x16.Reduces [1] S20000
  shapeCasts_S20000_S20000x1 : S20000.ShapeCasts S20000x1
  broadcasts_S20000x1_S20000x16 : S20000x1.Broadcasts S20000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x128_S128x48_S20000x48_1_0_0_1_n_n_wf : DotDims.WF S20000x128 S128x48 S20000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S20000x48_S48x16_S20000x16_1_0_0_1_n_n_wf : DotDims.WF S20000x48 S48x16 S20000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x48.size a ≤ S100000x48.size a
  hwx0_2 : ∀ i : grid0.Coords, EltTy.bits .f32 = 32 ∨ (Rect.block (s := S100000x48) S20000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x48.size a ≤ S100000x48.size a
  hwx1_0 : ∀ i : grid1.Coords, EltTy.bits .f32 = 32 ∨ (Rect.block (s := S100000x48) S20000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x16.size a ≤ S48x16.size a
  hwx1_2 : ∀ i : grid1.Coords, EltTy.bits .f32 = 32 ∨ (Rect.block (s := S48x16) S48x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x16.size a ≤ S100000x16.size a
  hwx1_3 : ∀ i : grid1.Coords, EltTy.bits .f32 = 32 ∨ (Rect.block (s := S100000x16) S20000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S100000x16.size a
  hwx2_0 : ∀ i : grid2.Coords, EltTy.bits .f32 = 32 ∨ (Rect.block (s := S100000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x16.size a ≤ S100000x16.size a
  hwx2_2 : ∀ i : grid2.Coords, EltTy.bits .f32 = 32 ∨ (Rect.block (s := S100000x16) S20000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x128_S128x48_S20000x48_1_0_0_1_n_n : DotDims S20000x128 S128x48 S20000x48 where
  lhsContracting := [1]
  rhsContracting := [0]
  lhsNonContracting := [0]
  rhsNonContracting := [1]
  lhsBatch := []
  rhsBatch := []
  wf := dot_S20000x128_S128x48_S20000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S20000x48_S48x16_S20000x16_1_0_0_1_n_n : DotDims S20000x48 S48x16 S20000x16 where
  lhsContracting := [1]
  rhsContracting := [0]
  lhsNonContracting := [0]
  rhsNonContracting := [1]
  lhsBatch := []
  rhsBatch := []
  wf := dot_S20000x48_S48x16_S20000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S20000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S48x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S20000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S20000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x16 : Shape := ⟨2, ![48, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x48, .f32⟩
  | 3 => ⟨S48, .f32⟩
  | 4 => ⟨S48x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x48, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x48, .f32⟩
  | 56 => ⟨S1700000x1, .f32⟩
  | 57 => ⟨S1700000x48, .f32⟩
  | 58 => ⟨S1700000x48, .f32⟩
  | 59 => ⟨S_, .f32⟩
  | 60 => ⟨S100000x48, .f32⟩
  | 61 => ⟨S1700000x1, .i32⟩
  | 62 => ⟨S100000x48, .f32⟩
  | 63 => ⟨S1x48, .f32⟩
  | 64 => ⟨S100000x48, .f32⟩
  | 65 => ⟨S100000x48, .f32⟩
  | 66 => ⟨S_, .f32⟩
  | 67 => ⟨S100000x48, .f32⟩
  | 68 => ⟨S100000x48, .f32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .i1⟩
  | 78 => ⟨S_, .f32⟩
  | 79 => ⟨S_, .f32⟩
  | 80 => ⟨S100000, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S100000x16, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x16, .f32⟩
  | 112 => ⟨S1700000x1, .f32⟩
  | 113 => ⟨S1700000x16, .f32⟩
  | 114 => ⟨S1700000x16, .f32⟩
  | 115 => ⟨S_, .f32⟩
  | 116 => ⟨S100000x16, .f32⟩
  | 117 => ⟨S1700000x1, .i32⟩
  | 118 => ⟨S100000x16, .f32⟩
  | 119 => ⟨S1x16, .f32⟩
  | 120 => ⟨S100000x16, .f32⟩
  | 121 => ⟨S100000x16, .f32⟩
  | 122 => ⟨S_, .f32⟩
  | 123 => ⟨S100000x16, .f32⟩
  | 124 => ⟨S100000x16, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x16, .f32⟩
  | 4 => ⟨S100000x16, .f32⟩
  | 5 => ⟨S100000x16, .f32⟩
  | 6 => ⟨S_, .f32⟩
  | 7 => ⟨S100000, .f32⟩
  | 8 => ⟨S100000x1, .f32⟩
  | 9 => ⟨S100000x16, .f32⟩
  | 10 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_call2_v0 : Ref sig .tc := ⟨.hbm, 79, rfl⟩
abbrev main_call2_v1 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x48_S100000x48_1_0_0_1_n_n_wf : DotDims.WF S100000x128 S128x48 S100000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x16_S100000x16_1_0_0_1_n_n_wf : DotDims.WF S100000x48 S48x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x16_S100000x16_1_0_0_1_n_n : DotDims S100000x48 S48x16 S100000x16 where
  lhsContracting := [1]
  rhsContracting := [0]
  lhsNonContracting := [0]
  rhsNonContracting := [1]
  lhsBatch := []
  rhsBatch := []
  wf := dot_S100000x48_S48x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named.

  The program is eight segments: three stretches of host operations, the first row-tiled product, a stretch, the
  second tiled stage, a stretch, the tiled softmax. The frame's launch already ends with every unscoped buffer at the
  contents `W8` that the last region leaves; here the same launch is read off at the result buffer as well as at the
  six arguments, so that the value of the result is `W8` at that buffer.
-/
import proofs.«112622_j31464930410621_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without fault with the result buffer at the last region's exit contents
    and the arguments as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«112622_j31464930410621_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«112622_j31464930410621_2_alg».proof.Proof.LibMatmulPlain
import proofs.«112622_j31464930410621_2_alg».proof.Proof.LibDotGeneralPlain
import proofs.«112622_j31464930410621_2_alg».proof.Proof.LibHostBroadcast
import proofs.«112622_j31464930410621_2_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«112622_j31464930410621_2_alg».proof.Proof.LibRowBlock
import proofs.«112622_j31464930410621_2_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.LibRowLanes.lean ====
/-
  Lane reductions of row blocks.

  A reduction along the lanes (the columns) of a matrix looks at one row at a time, so it takes a row block to the
  same rows of the reduction of the whole matrix. Two reductions are read here, each kept as a column: the maximum
  of a row, which a kernel takes as a fold of max from minus infinity and the host as a fold from minus infinity
  followed by one more max with minus infinity (a maximum is at least where its fold starts, so the extra max
  changes nothing); and the sum of a row, which the host takes from an initial value of zero. The logarithm of a
  column is entry by entry. Over the extended reals; generic in the extents.
-/
import proofs.«112622_j31464930410621_2_alg».proof.Proof.LibRowBlock
import Idealize.ShloMosaic.PureOps.Ideal.Laws

noncomputable section

open scoped BigOperators

namespace Cert.LibRowBlock

open Idealize.ShloMosaic Idealize.ShloMosaic.ValueIdx

variable {M M' N : ℕ} {r : ℕ}

/-- The index of the matrix over row p whose lane coordinate is k. -/
theorem lift_lane (h : (⟨2, ![M, N]⟩ : Shape).Reduces [(1 : Fin 2)] ⟨1, ![M]⟩) (p : Fin M) (k : Fin N) :
    h.lift (ix1 p) k = ix2 p k := by
  funext c
  apply Fin.ext
  match c with
  | ⟨0, _⟩ => rfl
  | ⟨1, _⟩ => rfl

/-- A fold of max is at least its starting value, so one more max with that value changes nothing. -/
theorem max_fold_max {ι : Type} (s : Finset ι) (a : EReal) (f : ι → EReal) : max a (s.fold max a f) = s.fold max a f :=
  max_eq_right ((Finset.le_fold_max a).mpr (Or.inl le_rfl))

namespace RowBlk

/-- The maximum of each row, kept as a column. -/
theorem laneMax {φ : FTy} (acc : BitVec φ.bits)
    (hred : (⟨2, ![M, N]⟩ : Shape).Reduces [(1 : Fin 2)] ⟨1, ![M]⟩) (hφ : FKind.Formats φ)
    (hacc : acc = FKind.maximumf.neutral φ hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (d0 : Fin (⟨0, ![]⟩ : Shape).rank → Fin (⟨1, ![M']⟩ : Shape).rank) (h0 : (⟨0, ![]⟩ : Shape).BroadcastsInDim ⟨1, ![M']⟩ d0)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ φ} {X : FVec Ideal ⟨2, ![M', N]⟩ φ} (hx : RowBlk r x X) :
    RowBlk r (shapeCast ⟨2, ![M, 1]⟩ (multiReduction .maximumf [1] ⟨1, ![M]⟩ x acc hred hφ hacc) hc)
      (broadcastInDim ⟨2, ![M', 1]⟩ dims hB
        (maximumf (broadcastInDim ⟨1, ![M']⟩ d0 h0 (constant (F := Ideal) ⟨0, ![]⟩ φ acc))
          (Host.reduce FloatOps.maximumf X (constant (F := Ideal) ⟨0, ![]⟩ φ acc) hredT hu))) := fun p q h => by
  rw [Cert.Columns.shapeCast_a_a1_apply, Cert.LibHostBroadcast.bcast_a_a1_apply dims hd hB]
  show multiReduction .maximumf [1] ⟨1, ![M]⟩ x acc hred hφ hacc (ix1 p)
    = max (Ideal.ofBits φ acc) (Host.reduce FloatOps.maximumf X (constant (F := Ideal) ⟨0, ![]⟩ φ acc) hredT hu (ix1 ⟨r + p.val, h⟩))
  rw [Ideal.multiReduction_maximumf_single, Host.reduce_eq_fold_single FloatOps.maximumf X _ hredT hred' hu]
  have e : (x ∘ hred.lift (ix1 p)) = (X ∘ hred'.lift (ix1 ⟨r + p.val, h⟩)) := funext fun k => by
    show x (hred.lift (ix1 p) k) = X (hred'.lift (ix1 ⟨r + p.val, h⟩) k)
    rw [lift_lane hred p k, lift_lane hred' ⟨r + p.val, h⟩ k]
    exact hx p k h
  rw [e]
  exact (max_fold_max _ _ _).symm

/-- The sum of each row, kept as a column; the host's sum starts from zero. -/
theorem laneSum (hred : (⟨2, ![M, N]⟩ : Shape).Reduces [(1 : Fin 2)] ⟨1, ![M]⟩) (hφ : FKind.Formats .f32)
    (hacc : (0x00000000#32 : BitVec 32) = FKind.add.neutral .f32 hφ) (hc : (⟨1, ![M]⟩ : Shape).ShapeCasts ⟨2, ![M, 1]⟩)
    (hredT : (⟨2, ![M', N]⟩ : Shape).ReducesTo [(1 : Fin 2)] ⟨1, ![M']⟩)
    (hred' : (⟨2, ![M', N]⟩ : Shape).Reduces [(1 : Fin 2)] ⟨1, ![M']⟩)
    (hu : 0 < (⟨0, ![]⟩ : Shape).numel)
    (dims : Fin (⟨1, ![M']⟩ : Shape).rank → Fin (⟨2, ![M', 1]⟩ : Shape).rank) (hd : dims ⟨0, Nat.one_pos⟩ = ⟨0, Nat.succ_pos 1⟩)
    (hB : (⟨1, ![M']⟩ : Shape).BroadcastsInDim ⟨2, ![M', 1]⟩ dims)
    {x : FVec Ideal ⟨2, ![M, N]⟩ .f32} {X : FVec Ideal ⟨2, ![M', N]⟩ .f32} (hx : RowBlk r x X) :
    RowBlk r (shapeCast ⟨2, ![M, 1]⟩ (multiReduction .add [1] ⟨1, ![M]⟩ x 0x00000000#32 hred hφ hacc) hc)
      (broadcastInDim ⟨2, ![M', 1]⟩ dims hB
        (Host.reduceAdd X (constant (F := Ideal) ⟨0, ![]⟩ .f32 0x00000000#32) hredT hu)) := fun p q h => by
  rw [Cert.Columns.shapeCast_a_a1_apply, Cert.LibHostBroadcast.bcast_a_a1_apply dims hd hB]
  rw [Ideal.multiReduction_add_single]
  simp only [Host.reduceAdd, Ideal.hostReduceAdd_def]
  rw [Ideal.hostReduceAdd_single hredT hred']
  show _ = Ideal.ofBits .f32 0x00000000#32 + _
  rw [Ideal.ofBits_zero_f32, zero_add]
  refine Finset.sum_congr rfl fun k _ => ?_
  rw [lift_lane hred p k, lift_lane hred' ⟨r + p.val, h⟩ k]
  exact hx p k h

/-- The logarithm of a column, the kernel's and the host's, entry by entry. -/
theorem log_hostLog {φ : FTy} {x : FVec Ideal ⟨2, ![M, N]⟩ φ} {X : FVec Ideal ⟨2, ![M', N]⟩ φ} (hx : RowBlk r x X) :
    RowBlk r (Idealize.ShloMosaic.log x) (Host.log X) := RowBlk.map₁ Ideal.log hx

/-- The larger of two entries, entry by entry. -/
theorem maximumf {φ : FTy} {x y : FVec Ideal ⟨2, ![M, N]⟩ φ} {X Y : FVec Ideal ⟨2, ![M', N]⟩ φ} (hx : RowBlk r x X) (hy : RowBlk r y Y) :
    RowBlk r (Idealize.ShloMosaic.maximumf x y) (Idealize.ShloMosaic.maximumf X Y) := RowBlk.map₂ FloatOps.maximumf hx hy

end RowBlk

end Cert.LibRowBlock

end
-- ==== Proof.LibRowBlockFmt.lean ====
/-
  Row blocks across float formats, and the quotient.

  On the extended reals a change of float format is the identity, so a kernel that narrows its operands before a
  product computes the product of the operands themselves. Stated for row blocks: when the M×K matrix x is rows
  r, …, r+M-1 of the M'×K matrix X as extended reals, and the K×N matrices w and W have the same entries, the
  product of x and w accumulated from zero is the same row block of the host's product of X and W, whatever formats
  the four matrices are labelled with (entry (p, q) of either is the sum over k of row entries times column entries).
  A quotient entry by entry takes row blocks to row blocks, the kernel's division and the host's being one function.
  Generic in the extents.
-/
import proofs.«112622_j31464930410621_2_alg».proof.Proof.LibRowBlock

noncomputable section

open scoped BigOperators

namespace Cert.LibRowBlock.RowBlk

open Idealize.ShloMosaic Idealize.ShloMosaic.ValueIdx

variable {M M' N K : ℕ} {r : ℕ}

/-- A product of a row block with a shared matrix, accumulated from zero, is the row block of the host's product of
    the whole matrix, whatever float formats the four operands are labelled with. -/
theorem matmul_dot_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂)
    (hx : RowBlk (α := EReal) r x X) (hw : ∀ i, (w i : EReal) = W i) :
    RowBlk (α := EReal) r (FloatOps.matmul D prec x w (constant (F := Ideal) ⟨2, ![M, N]⟩ .f32 0x00000000#32))
      (FloatOps.dotGeneral D' prec' sched X W) := fun p q h => by
  rw [Cert.LibMatmulPlain.matmul_plain_zero_apply D hD, Cert.LibDotGeneralPlain.dotGeneral_plain_apply D' hD']
  exact Finset.sum_congr rfl fun k _ => by rw [hx p k h, hw]

/-- A quotient entry by entry, the kernel's on a block and the host's on the whole matrix. -/
theorem divf_hostDivf {φ : FTy} {x y : FVec Ideal ⟨2, ![M, N]⟩ φ} {X Y : FVec Ideal ⟨2, ![M', N]⟩ φ}
    (hx : RowBlk r x X) (hy : RowBlk r y Y) :
    RowBlk r (Idealize.ShloMosaic.divf x y) (Host.divf X Y) := RowBlk.map₂ Ideal.div hx hy

end Cert.LibRowBlock.RowBlk

end
-- ==== Proof.Dense.lean ====
/-
  The three tiled stages, one row block at a time.

  Each region computes, on a block of 20000 consecutive rows, a stage whose every output row depends on the same row
  of the tiled input and on operands shared by all rows: the first, rows of x times W1; the second, the rows of
  max(a + b1, 0) times W2; the third, the softmax along the 16 lanes of the rows of max(a + b2, 0). So the stage of a
  row block is the row block of the stage of the whole matrix, in the host's spelling: a narrowing of the float format
  is the identity on the extended reals, a product accumulated from zero is the plain sum over the contracted axis,
  the row maximum folded from minus infinity absorbs one more max with minus infinity, and the sum from zero is the sum.
-/
import proofs.«112622_j31464930410621_2_alg».proof.Proof.Gen.KernelIdeal.Skeleton
import proofs.«112622_j31464930410621_2_alg».proof.Proof.Gen.ReferenceIdeal
import proofs.«112622_j31464930410621_2_alg».proof.Proof.LibRowBlock
import proofs.«112622_j31464930410621_2_alg».proof.Proof.LibRowBlockOps
import proofs.«112622_j31464930410621_2_alg».proof.Proof.LibRowLanes
import proofs.«112622_j31464930410621_2_alg».proof.Proof.LibRowBlockFmt

noncomputable section

open scoped BigOperators

namespace Cert.Dense

open Idealize.ShloMosaic Idealize.ShloMosaic.ValueIdx Cert.LibRowBlock

variable {M M' N K : ℕ} {r : ℕ}

/-- The host's first product: X times W1. -/
def dense1 (X : FVec Ideal Cert.ReferenceIdeal.S100000x128 .f32) (w : FVec Ideal Cert.ReferenceIdeal.S128x48 .f32) :
    FVec Ideal Cert.ReferenceIdeal.S100000x48 .f32 :=
  Host.dotGeneral Cert.ReferenceIdeal.dot_S100000x128_S128x48_S100000x48_1_0_0_1_n_n none X w

/-- Rows of x times W1. -/
theorem stage0 (x : Vec Ideal Cert.KernelIdeal.S20000x128 .f32)
    (X : FVec Ideal Cert.ReferenceIdeal.S100000x128 .f32)
    (w : Vec Ideal Cert.KernelIdeal.S128x48 .f32) (hx : RowBlk (α := EReal) r x X) :
    RowBlk (α := EReal) r (Cert.KernelIdeal.Gen.k0_pay1 (F := Ideal) x w) (dense1 X w) := by
  unfold Cert.KernelIdeal.Gen.k0_pay1 dense1
  exact RowBlk.matmul_dot_fmt Cert.KernelIdeal.dot_S20000x128_S128x48_S20000x48_1_0_0_1_n_n rfl
    Cert.ReferenceIdeal.dot_S100000x128_S128x48_S100000x48_1_0_0_1_n_n rfl none none .single _ X _ w hx (fun _ => rfl)

/-- The host's bias and relu of a whole matrix A with a bias row b, 48 columns. -/
def biasRelu48 (A : FVec Ideal Cert.ReferenceIdeal.S100000x48 .f32) (b : FVec Ideal Cert.ReferenceIdeal.S1x48 .f32) :
    FVec Ideal Cert.ReferenceIdeal.S100000x48 .f32 :=
  maximumf (addf A (broadcastInDim Cert.ReferenceIdeal.S100000x48 ![0, 1] Cert.ReferenceIdeal.Facts₀.bcast_S1x48_S100000x48_0_1 b))
    (broadcastInDim Cert.ReferenceIdeal.S100000x48 ![] Cert.ReferenceIdeal.Facts₀.bcast_S_S100000x48 (constant (F := Ideal) Cert.ReferenceIdeal.S_ .f32 0x00000000#32))

/-- The host's bias and relu of a whole matrix A with a bias row b, 16 columns. -/
def biasRelu16 (A : FVec Ideal Cert.ReferenceIdeal.S100000x16 .f32) (b : FVec Ideal Cert.ReferenceIdeal.S1x16 .f32) :
    FVec Ideal Cert.ReferenceIdeal.S100000x16 .f32 :=
  maximumf (addf A (broadcastInDim Cert.ReferenceIdeal.S100000x16 ![0, 1] Cert.ReferenceIdeal.Facts₀.bcast_S1x16_S100000x16_0_1 b))
    (broadcastInDim Cert.ReferenceIdeal.S100000x16 ![] Cert.ReferenceIdeal.Facts₀.bcast_S_S100000x16 (constant (F := Ideal) Cert.ReferenceIdeal.S_ .f32 0x00000000#32))

/-- The host's second product: max(A + b1, 0) times W2. -/
def dense2 (A : FVec Ideal Cert.ReferenceIdeal.S100000x48 .f32) (b : FVec Ideal Cert.ReferenceIdeal.S1x48 .f32)
    (w : FVec Ideal Cert.ReferenceIdeal.S48x16 .f32) : FVec Ideal Cert.ReferenceIdeal.S100000x16 .f32 :=
  Host.dotGeneral Cert.ReferenceIdeal.dot_S100000x48_S48x16_S100000x16_1_0_0_1_n_n none (biasRelu48 A b) w

/-- The row maxima of H, spread back over the 16 lanes, in the host's spelling. -/
def rowMax16 (H : FVec Ideal Cert.ReferenceIdeal.S100000x16 .f32) : FVec Ideal Cert.ReferenceIdeal.S100000x16 .f32 :=
  broadcastInDim Cert.ReferenceIdeal.S100000x16 ![0, 1] Cert.ReferenceIdeal.Facts₀.bcast_S100000x1_S100000x16_0_1
    (broadcastInDim Cert.ReferenceIdeal.S100000x1 ![0] Cert.ReferenceIdeal.Facts₀.bcast_S100000_S100000x1_0
      (maximumf (broadcastInDim Cert.ReferenceIdeal.S100000 ![] Cert.ReferenceIdeal.Facts₀.bcast_S_S100000 (constant (F := Ideal) Cert.ReferenceIdeal.S_ .f32 0xFF800000#32))
        (Host.reduce FloatOps.maximumf H (constant (F := Ideal) Cert.ReferenceIdeal.S_ .f32 0xFF800000#32)
          Cert.ReferenceIdeal.Facts₀.reducesTo_S100000x16_S100000_d1 Cert.ReferenceIdeal.Facts₀.h_S_)))

/-- The row sums of E, spread back over the 16 lanes, in the host's spelling. -/
def rowSum16 (E : FVec Ideal Cert.ReferenceIdeal.S100000x16 .f32) : FVec Ideal Cert.ReferenceIdeal.S100000x16 .f32 :=
  broadcastInDim Cert.ReferenceIdeal.S100000x16 ![0, 1] Cert.ReferenceIdeal.Facts₀.bcast_S100000x1_S100000x16_0_1
    (broadcastInDim Cert.ReferenceIdeal.S100000x1 ![0] Cert.ReferenceIdeal.Facts₀.bcast_S100000_S100000x1_0
      (Host.reduceAdd E (constant (F := Ideal) Cert.ReferenceIdeal.S_ .f32 0x00000000#32)
        Cert.ReferenceIdeal.Facts₀.reducesTo_S100000x16_S100000_d1 Cert.ReferenceIdeal.Facts₀.h_S_))

/-- The host's softmax along the lanes of H. -/
def softmax16 (H : FVec Ideal Cert.ReferenceIdeal.S100000x16 .f32) : FVec Ideal Cert.ReferenceIdeal.S100000x16 .f32 :=
  Host.divf (Host.exp (subf H (rowMax16 H))) (rowSum16 (Host.exp (subf H (rowMax16 H))))

/-- The host's softmax along the lanes of max(A + b2, 0). -/
def softmaxRelu (A : FVec Ideal Cert.ReferenceIdeal.S100000x16 .f32) (b : FVec Ideal Cert.ReferenceIdeal.S1x16 .f32) :
    FVec Ideal Cert.ReferenceIdeal.S100000x16 .f32 := softmax16 (biasRelu16 A b)

theorem biasRelu48_blk (a : Vec Ideal Cert.KernelIdeal.S20000x48 .f32) (A : FVec Ideal Cert.ReferenceIdeal.S100000x48 .f32)
    (b : Vec Ideal Cert.KernelIdeal.S1x48 .f32) (ha : RowBlk (α := EReal) r a A) :
    RowBlk (α := EReal) r
      (maximumf (addf (shapeCast Cert.KernelIdeal.S20000x48 a Cert.KernelIdeal.Facts₀.shapeCasts_S20000x48_S20000x48)
          (broadcastTo Cert.KernelIdeal.S20000x48 (shapeCast Cert.KernelIdeal.S1x48 b Cert.KernelIdeal.Facts₀.shapeCasts_S1x48_S1x48) Cert.KernelIdeal.Facts₀.broadcasts_S1x48_S20000x48))
        (broadcast Cert.KernelIdeal.S20000x48 (Scalar.ofBits (F := Ideal) .f32 0x00000000#32)))
      (biasRelu48 A b) := by
  rw [shapeCast_self, shapeCast_self]
  exact RowBlk.maximumf (RowBlk.addf ha (RowBlk.rowBias b _ _ rfl _)) (RowBlk.splat _ _ _)

theorem biasRelu16_blk (a : Vec Ideal Cert.KernelIdeal.S20000x16 .f32) (A : FVec Ideal Cert.ReferenceIdeal.S100000x16 .f32)
    (b : Vec Ideal Cert.KernelIdeal.S1x16 .f32) (ha : RowBlk (α := EReal) r a A) :
    RowBlk (α := EReal) r
      (maximumf (addf (shapeCast Cert.KernelIdeal.S20000x16 a Cert.KernelIdeal.Facts₀.shapeCasts_S20000x16_S20000x16)
          (broadcastTo Cert.KernelIdeal.S20000x16 (shapeCast Cert.KernelIdeal.S1x16 b Cert.KernelIdeal.Facts₀.shapeCasts_S1x16_S1x16) Cert.KernelIdeal.Facts₀.broadcasts_S1x16_S20000x16))
        (broadcast Cert.KernelIdeal.S20000x16 (Scalar.ofBits (F := Ideal) .f32 0x00000000#32)))
      (biasRelu16 A b) := by
  rw [shapeCast_self, shapeCast_self]
  exact RowBlk.maximumf (RowBlk.addf ha (RowBlk.rowBias b _ _ rfl _)) (RowBlk.splat _ _ _)

/-- Rows of max(a + b1, 0) times W2. -/
theorem stage1 (a : Vec Ideal Cert.KernelIdeal.S20000x48 .f32) (A : FVec Ideal Cert.ReferenceIdeal.S100000x48 .f32)
    (b : Vec Ideal Cert.KernelIdeal.S1x48 .f32) (w : Vec Ideal Cert.KernelIdeal.S48x16 .f32) (ha : RowBlk (α := EReal) r a A) :
    RowBlk (α := EReal) r (Cert.KernelIdeal.Gen.k1_pay1 (F := Ideal) a b w) (dense2 A b w) := by
  unfold Cert.KernelIdeal.Gen.k1_pay1 dense2
  exact RowBlk.matmul_dot_fmt Cert.KernelIdeal.dot_S20000x48_S48x16_S20000x16_1_0_0_1_n_n rfl
    Cert.ReferenceIdeal.dot_S100000x48_S48x16_S100000x16_1_0_0_1_n_n rfl none none .single _ (biasRelu48 A b) _ w
    (biasRelu48_blk a A b ha) (fun _ => rfl)

/-- The softmax along the lanes of the rows of max(a + b2, 0). -/
theorem stage2 (a : Vec Ideal Cert.KernelIdeal.S20000x16 .f32) (A : FVec Ideal Cert.ReferenceIdeal.S100000x16 .f32)
    (b : Vec Ideal Cert.KernelIdeal.S1x16 .f32) (ha : RowBlk (α := EReal) r a A) :
    RowBlk (α := EReal) r (Cert.KernelIdeal.Gen.k2_pay1 (F := Ideal) a b) (softmaxRelu A b) := by
  have hH := biasRelu16_blk (r := r) a A b ha
  have hred' : Cert.ReferenceIdeal.S100000x16.Reduces [1] Cert.ReferenceIdeal.S100000 := by decide
  have hmax := RowBlk.colSpread (N := 16)
    (RowBlk.laneMax (φ := .f32) 0xFF800000#32 Cert.KernelIdeal.Facts₀.reduces_S20000x16_S20000 (.inl rfl) rfl
      Cert.KernelIdeal.Facts₀.shapeCasts_S20000_S20000x1 Cert.ReferenceIdeal.Facts₀.reducesTo_S100000x16_S100000_d1 hred'
      Cert.ReferenceIdeal.Facts₀.h_S_ ![] Cert.ReferenceIdeal.Facts₀.bcast_S_S100000 ![0] rfl Cert.ReferenceIdeal.Facts₀.bcast_S100000_S100000x1_0 hH)
    Cert.KernelIdeal.Facts₀.broadcasts_S20000x1_S20000x16 ![0, 1] rfl Cert.ReferenceIdeal.Facts₀.bcast_S100000x1_S100000x16_0_1
  have he := RowBlk.exp_hostExp (RowBlk.subf hH hmax)
  have hsum := RowBlk.colSpread (N := 16)
    (RowBlk.laneSum Cert.KernelIdeal.Facts₀.reduces_S20000x16_S20000 (.inl rfl) rfl
      Cert.KernelIdeal.Facts₀.shapeCasts_S20000_S20000x1 Cert.ReferenceIdeal.Facts₀.reducesTo_S100000x16_S100000_d1 hred'
      Cert.ReferenceIdeal.Facts₀.h_S_ ![0] rfl Cert.ReferenceIdeal.Facts₀.bcast_S100000_S100000x1_0 he)
    Cert.KernelIdeal.Facts₀.broadcasts_S20000x1_S20000x16 ![0, 1] rfl Cert.ReferenceIdeal.Facts₀.bcast_S100000x1_S100000x16_0_1
  exact RowBlk.divf_hostDivf he hsum

end Cert.Dense

end
-- ==== Proof.Blocks.lean ====
/-
  From blocks to arrays, region by region.

  Each region walks five grid points; point t fetches rows 20000 t … 20000 t + 19999 of the tiled input, the shared
  operands whole, and writes back the same rows of the output. What it writes is the stage applied to its row block,
  which is that row block of the stage applied to the whole input; the five row tiles cover the output array; so the
  array the region leaves is the stage of the arrays it found, in the host's spelling.
-/
import proofs.«112622_j31464930410621_2_alg».proof.Proof.Gen.KernelIdeal.Frame
import proofs.«112622_j31464930410621_2_alg».proof.Proof.Dense
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.LibRowBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: rows of x times W1 -/

/-- The index maps over the five grid points: the tiled input moves with the output along the rows and sits at
    column block 0; every shared operand sits at block (0, 0). -/
theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row tile is some grid point's. -/
theorem onto0 : ∀ q : Fin 5, ∃ t : Fin cfg0.N, win0_2.index t = ![q.val, 0] :=
  (by decide +kernel : ∀ q : Fin 5, ∃ t : Fin grid0.N, win0_2.index t = ![q.val, 0])

/-- The tiled input's block at a point is the rows of its array from that point's first row on. -/
theorem in0_rows (c : Dev nD) (t : Fin cfg0.N) :
    RowBlk (α := EReal) (M := 20000) (N := 128) (M' := 100000) (win0_2.index t (0 : Fin 2) * 20000) (iblk0 (F := Ideal) V c 0 t) (V c main_arg0) := by
  obtain ⟨e0, e1, e2, e3, e4⟩ := idx0 t
  intro p q h
  show V c main_arg0 (((cfg0.win 0).blk t).view.emb (ix2 p q)) = V c main_arg0 (ix2 ⟨_, h⟩ q)
  refine congrArg (V c main_arg0) ?_
  funext a; apply Fin.ext
  match a with
  | ⟨0, _⟩ => show win0_0.index t (0 : Fin 2) * 20000 + 1 * p.val = win0_2.index t (0 : Fin 2) * 20000 + p.val; omega
  | ⟨1, _⟩ => show win0_0.index t (1 : Fin 2) * 128 + 1 * q.val = q.val; omega

/-- A shared operand's block at every point is its whole array. -/
theorem in0_whole1 (c : Dev nD) (t : Fin cfg0.N) : (iblk0 (F := Ideal) V c 1 t : S128x48.Idx → EReal) = V c main_arg2 := by
  obtain ⟨e0, e1, e2, e3, e4⟩ := idx0 t
  funext j
  show V c main_arg2 (((cfg0.win 1).blk t).view.emb j) = V c main_arg2 j
  refine congrArg (V c main_arg2) ?_
  funext a; apply Fin.ext
  match a with
  | ⟨0, _⟩ => show win0_1.index t (0 : Fin 2) * 128 + 1 * (j 0).val = (j 0).val; omega
  | ⟨1, _⟩ => show win0_1.index t (1 : Fin 2) * 48 + 1 * (j 1).val = (j 1).val; omega

/-- What a point writes back is its row tile of the stage of the whole arrays. -/
theorem flushed0 (c : Dev nD) (t : Fin cfg0.N) :
    (dat0 (F := Ideal) V c).flushed 2 t = ((cfg0.win 2).blk t).view.read (Elt Ideal) (Cert.Dense.dense1 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S20000x128) hz, View.ld_unit_zero (S := S128x48) hz]
  obtain ⟨e0, e1, e2, e3, e4⟩ := idx0 t
  funext j
  show k0_pay1 (F := Ideal) (iblk0 (F := Ideal) V c 0 t) (iblk0 (F := Ideal) V c 1 t) j = (Cert.Dense.dense1 (V c main_arg0) (V c main_arg2)) (((cfg0.win 2).blk t).view.emb j)
  rw [in0_whole1 V c t]
  exact (Cert.Dense.stage0 (iblk0 (F := Ideal) V c 0 t) (V c main_arg0) (V c main_arg2) (in0_rows V c t)).apply j _
    (by show win0_2.index t (0 : Fin 2) * 20000 + 1 * (j 0).val = win0_2.index t (0 : Fin 2) * 20000 + (j 0).val; omega)
    (by show win0_2.index t (1 : Fin 2) * 48 + 1 * (j 1).val = (j 1).val; omega)

/-- An index of the output array is in a point's block iff each coordinate is in the block's range. -/
theorem mem_blk0 (t : Fin cfg0.N) (i : S100000x48.Idx) :
    i ∈ ((cfg0.win 2).blk t).view.set ↔ ∀ a : Fin 2, win0_2.index t a * S20000x48.size a ≤ (i a).val ∧ (i a).val < win0_2.index t a * S20000x48.size a + S20000x48.size a := by
  show i ∈ ((View.whole main_v30).slice (win0_2.rect t)).set ↔ _
  rw [View.set_slice_whole, Rect.mem_set_unit]
  exact Iff.rfl

/-- The five row tiles cover the output array: row i0 is in tile i0 / 20000. -/
theorem cover0 (i : S100000x48.Idx) : ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ := onto0 ⟨(i 0).val / 20000, by omega⟩
  have q0 : win0_2.index t (0 : Fin 2) = (i 0).val / 20000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 48 ≤ (i 1).val ∧ (i 1).val < win0_2.index t (1 : Fin 2) * 48 + 48; omega

/-- The output array after the region is the stage of the arrays the region found. -/
theorem final0 (c : Dev nD) : (dat0 (F := Ideal) V c).arrAt 2 cfg0.N = Cert.Dense.dense1 (V c main_arg0) (V c main_arg2) :=
  (dat0 (F := Ideal) V c).arrAt_eq_of_cover 2 _ (fun t _ => flushed0 V c t) (cover0)

/-! ## Region 1: rows of max(a + b1, 0) times W2 -/

/-- The index maps over the five grid points: the tiled input moves with the output along the rows and sits at
    column block 0; every shared operand sits at block (0, 0). -/
theorem idx1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every row tile is some grid point's. -/
theorem onto1 : ∀ q : Fin 5, ∃ t : Fin cfg1.N, win1_3.index t = ![q.val, 0] :=
  (by decide +kernel : ∀ q : Fin 5, ∃ t : Fin grid1.N, win1_3.index t = ![q.val, 0])

/-- The tiled input's block at a point is the rows of its array from that point's first row on. -/
theorem in1_rows (c : Dev nD) (t : Fin cfg1.N) :
    RowBlk (α := EReal) (M := 20000) (N := 48) (M' := 100000) (win1_3.index t (0 : Fin 2) * 20000) (iblk1 (F := Ideal) V c 0 t) (V c main_v43) := by
  obtain ⟨e0, e1, e2, e3, e4, e5, e6⟩ := idx1 t
  intro p q h
  show V c main_v43 (((cfg1.win 0).blk t).view.emb (ix2 p q)) = V c main_v43 (ix2 ⟨_, h⟩ q)
  refine congrArg (V c main_v43) ?_
  funext a; apply Fin.ext
  match a with
  | ⟨0, _⟩ => show win1_0.index t (0 : Fin 2) * 20000 + 1 * p.val = win1_3.index t (0 : Fin 2) * 20000 + p.val; omega
  | ⟨1, _⟩ => show win1_0.index t (1 : Fin 2) * 48 + 1 * q.val = q.val; omega

/-- A shared operand's block at every point is its whole array. -/
theorem in1_whole1 (c : Dev nD) (t : Fin cfg1.N) : (iblk1 (F := Ideal) V c 1 t : S1x48.Idx → EReal) = V c main_v44 := by
  obtain ⟨e0, e1, e2, e3, e4, e5, e6⟩ := idx1 t
  funext j
  show V c main_v44 (((cfg1.win 1).blk t).view.emb j) = V c main_v44 j
  refine congrArg (V c main_v44) ?_
  funext a; apply Fin.ext
  match a with
  | ⟨0, _⟩ => show win1_1.index t (0 : Fin 2) * 1 + 1 * (j 0).val = (j 0).val; omega
  | ⟨1, _⟩ => show win1_1.index t (1 : Fin 2) * 48 + 1 * (j 1).val = (j 1).val; omega

/-- A shared operand's block at every point is its whole array. -/
theorem in1_whole2 (c : Dev nD) (t : Fin cfg1.N) : (iblk1 (F := Ideal) V c 2 t : S48x16.Idx → EReal) = V c main_arg4 := by
  obtain ⟨e0, e1, e2, e3, e4, e5, e6⟩ := idx1 t
  funext j
  show V c main_arg4 (((cfg1.win 2).blk t).view.emb j) = V c main_arg4 j
  refine congrArg (V c main_arg4) ?_
  funext a; apply Fin.ext
  match a with
  | ⟨0, _⟩ => show win1_2.index t (0 : Fin 2) * 48 + 1 * (j 0).val = (j 0).val; omega
  | ⟨1, _⟩ => show win1_2.index t (1 : Fin 2) * 16 + 1 * (j 1).val = (j 1).val; omega

/-- What a point writes back is its row tile of the stage of the whole arrays. -/
theorem flushed1 (c : Dev nD) (t : Fin cfg1.N) :
    (dat1 (F := Ideal) V c).flushed 3 t = ((cfg1.win 3).blk t).view.read (Elt Ideal) (Cert.Dense.dense2 (V c main_v43) (V c main_v44) (V c main_arg4)) := by
  show (cfg1.win 3).cut (grid1.coords t) ((dat1 (F := Ideal) V c).after 3 t) = _
  rw [after1_3]
  unfold out1_3
  rw [View.canon_unit_zero hz]
  simp only [View.ld_unit_zero (S := S20000x48) hz, View.ld_unit_zero (S := S1x48) hz, View.ld_unit_zero (S := S48x16) hz]
  obtain ⟨e0, e1, e2, e3, e4, e5, e6⟩ := idx1 t
  funext j
  show k1_pay1 (F := Ideal) (iblk1 (F := Ideal) V c 0 t) (iblk1 (F := Ideal) V c 1 t) (iblk1 (F := Ideal) V c 2 t) j = (Cert.Dense.dense2 (V c main_v43) (V c main_v44) (V c main_arg4)) (((cfg1.win 3).blk t).view.emb j)
  rw [in1_whole1 V c t, in1_whole2 V c t]
  exact (Cert.Dense.stage1 (iblk1 (F := Ideal) V c 0 t) (V c main_v43) (V c main_v44) (V c main_arg4) (in1_rows V c t)).apply j _
    (by show win1_3.index t (0 : Fin 2) * 20000 + 1 * (j 0).val = win1_3.index t (0 : Fin 2) * 20000 + (j 0).val; omega)
    (by show win1_3.index t (1 : Fin 2) * 16 + 1 * (j 1).val = (j 1).val; omega)

/-- An index of the output array is in a point's block iff each coordinate is in the block's range. -/
theorem mem_blk1 (t : Fin cfg1.N) (i : S100000x16.Idx) :
    i ∈ ((cfg1.win 3).blk t).view.set ↔ ∀ a : Fin 2, win1_3.index t a * S20000x16.size a ≤ (i a).val ∧ (i a).val < win1_3.index t a * S20000x16.size a + S20000x16.size a := by
  show i ∈ ((View.whole main_v45).slice (win1_3.rect t)).set ↔ _
  rw [View.set_slice_whole, Rect.mem_set_unit]
  exact Iff.rfl

/-- The five row tiles cover the output array: row i0 is in tile i0 / 20000. -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := onto1 ⟨(i 0).val / 20000, by omega⟩
  have q0 : win1_3.index t (0 : Fin 2) = (i 0).val / 20000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 16 ≤ (i 1).val ∧ (i 1).val < win1_3.index t (1 : Fin 2) * 16 + 16; omega

/-- The output array after the region is the stage of the arrays the region found. -/
theorem final1 (c : Dev nD) : (dat1 (F := Ideal) V c).arrAt 3 cfg1.N = Cert.Dense.dense2 (V c main_v43) (V c main_v44) (V c main_arg4) :=
  (dat1 (F := Ideal) V c).arrAt_eq_of_cover 3 _ (fun t _ => flushed1 V c t) (cover1)

/-! ## Region 2: the lane softmax of the rows of max(a + b2, 0) -/

/-- The index maps over the five grid points: the tiled input moves with the output along the rows and sits at
    column block 0; every shared operand sits at block (0, 0). -/
theorem idx2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every row tile is some grid point's. -/
theorem onto2 : ∀ q : Fin 5, ∃ t : Fin cfg2.N, win2_2.index t = ![q.val, 0] :=
  (by decide +kernel : ∀ q : Fin 5, ∃ t : Fin grid2.N, win2_2.index t = ![q.val, 0])

/-- The tiled input's block at a point is the rows of its array from that point's first row on. -/
theorem in2_rows (c : Dev nD) (t : Fin cfg2.N) :
    RowBlk (α := EReal) (M := 20000) (N := 16) (M' := 100000) (win2_2.index t (0 : Fin 2) * 20000) (iblk2 (F := Ideal) V c 0 t) (V c main_v58) := by
  obtain ⟨e0, e1, e2, e3, e4⟩ := idx2 t
  intro p q h
  show V c main_v58 (((cfg2.win 0).blk t).view.emb (ix2 p q)) = V c main_v58 (ix2 ⟨_, h⟩ q)
  refine congrArg (V c main_v58) ?_
  funext a; apply Fin.ext
  match a with
  | ⟨0, _⟩ => show win2_0.index t (0 : Fin 2) * 20000 + 1 * p.val = win2_2.index t (0 : Fin 2) * 20000 + p.val; omega
  | ⟨1, _⟩ => show win2_0.index t (1 : Fin 2) * 16 + 1 * q.val = q.val; omega

/-- A shared operand's block at every point is its whole array. -/
theorem in2_whole1 (c : Dev nD) (t : Fin cfg2.N) : (iblk2 (F := Ideal) V c 1 t : S1x16.Idx → EReal) = V c main_v59 := by
  obtain ⟨e0, e1, e2, e3, e4⟩ := idx2 t
  funext j
  show V c main_v59 (((cfg2.win 1).blk t).view.emb j) = V c main_v59 j
  refine congrArg (V c main_v59) ?_
  funext a; apply Fin.ext
  match a with
  | ⟨0, _⟩ => show win2_1.index t (0 : Fin 2) * 1 + 1 * (j 0).val = (j 0).val; omega
  | ⟨1, _⟩ => show win2_1.index t (1 : Fin 2) * 16 + 1 * (j 1).val = (j 1).val; omega

/-- What a point writes back is its row tile of the stage of the whole arrays. -/
theorem flushed2 (c : Dev nD) (t : Fin cfg2.N) :
    (dat2 (F := Ideal) V c).flushed 2 t = ((cfg2.win 2).blk t).view.read (Elt Ideal) (Cert.Dense.softmaxRelu (V c main_v58) (V c main_v59)) := by
  show (cfg2.win 2).cut (grid2.coords t) ((dat2 (F := Ideal) V c).after 2 t) = _
  rw [after2_2]
  unfold out2_2
  rw [View.canon_unit_zero hz]
  simp only [View.ld_unit_zero (S := S20000x16) hz, View.ld_unit_zero (S := S1x16) hz]
  obtain ⟨e0, e1, e2, e3, e4⟩ := idx2 t
  funext j
  show k2_pay1 (F := Ideal) (iblk2 (F := Ideal) V c 0 t) (iblk2 (F := Ideal) V c 1 t) j = (Cert.Dense.softmaxRelu (V c main_v58) (V c main_v59)) (((cfg2.win 2).blk t).view.emb j)
  rw [in2_whole1 V c t]
  exact (Cert.Dense.stage2 (iblk2 (F := Ideal) V c 0 t) (V c main_v58) (V c main_v59) (in2_rows V c t)).apply j _
    (by show win2_2.index t (0 : Fin 2) * 20000 + 1 * (j 0).val = win2_2.index t (0 : Fin 2) * 20000 + (j 0).val; omega)
    (by show win2_2.index t (1 : Fin 2) * 16 + 1 * (j 1).val = (j 1).val; omega)

/-- An index of the output array is in a point's block iff each coordinate is in the block's range. -/
theorem mem_blk2 (t : Fin cfg2.N) (i : S100000x16.Idx) :
    i ∈ ((cfg2.win 2).blk t).view.set ↔ ∀ a : Fin 2, win2_2.index t a * S20000x16.size a ≤ (i a).val ∧ (i a).val < win2_2.index t a * S20000x16.size a + S20000x16.size a := by
  show i ∈ ((View.whole main_v60).slice (win2_2.rect t)).set ↔ _
  rw [View.set_slice_whole, Rect.mem_set_unit]
  exact Iff.rfl

/-- The five row tiles cover the output array: row i0 is in tile i0 / 20000. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := onto2 ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 16 ≤ (i 1).val ∧ (i 1).val < win2_2.index t (1 : Fin 2) * 16 + 16; omega

/-- The output array after the region is the stage of the arrays the region found. -/
theorem final2 (c : Dev nD) : (dat2 (F := Ideal) V c).arrAt 2 cfg2.N = Cert.Dense.softmaxRelu (V c main_v58) (V c main_v59) :=
  (dat2 (F := Ideal) V c).arrAt_eq_of_cover 2 _ (fun t _ => flushed2 V c t) (cover2)

end Cert.KernelIdeal.Blocks

end
-- ==== Proof.Spec.lean ====
/-
  The network as one function of its six arguments.

  With self-loops appended, src and dst list 1700000 edges over 100000 nodes. deg counts, per node, the edges that
  point at it; dinv is 1/sqrt(deg) where deg is positive and 1/sqrt(1) elsewhere; an edge's weight is dinv at its
  source times dinv at its target (a negative index is first wrapped by adding the node count, as numpy does).
  A layer gathers the rows of a dense matrix at the edges' sources, scales each by its edge's weight and adds it into
  the row of the edge's target. The network is softmax(relu(agg(relu(agg(x W1) + b1) W2) + b2)) along the 16 lanes.
  Everything here is spelled with the host's operations, so that the reference's result is this function by unfolding.
-/
import proofs.«112622_j31464930410621_2_alg».proof.Proof.Dense

noncomputable section

namespace Cert.Spec

open Idealize.ShloMosaic Cert.ReferenceIdeal Cert.ReferenceIdeal.Facts₀ Cert.Dense

/-- Row a of the edge index array followed by the self-loops 0 … 99999. -/
def edgeRow (a : ℕ) (h : S2x1600000.Slices ![a, 0] S1x1600000) (ei : (⟨S2x1600000, .i32⟩ : BufTy).Contents (Elt Ideal)) :
    (⟨S1700000, .i32⟩ : BufTy).Contents (Elt Ideal) :=
  concatenate S1700000 0 [⟨S1600000, (shapeCast _ (extractStridedSlice S1x1600000 ![a, 0] ei h) shapeCasts_S1x1600000_S1600000)⟩, ⟨S100000, (iotaInDim S100000 32 0)⟩] concatenates_S1600000_S100000_S1700000_d0

/-- The edges' sources. -/
def src (ei : (⟨S2x1600000, .i32⟩ : BufTy).Contents (Elt Ideal)) : (⟨S1700000, .i32⟩ : BufTy).Contents (Elt Ideal) :=
  edgeRow 0 slices_S2x1600000_S1x1600000_0_0 ei

/-- The edges' targets. -/
def dst (ei : (⟨S2x1600000, .i32⟩ : BufTy).Contents (Elt Ideal)) : (⟨S1700000, .i32⟩ : BufTy).Contents (Elt Ideal) :=
  edgeRow 1 slices_S2x1600000_S1x1600000_1_0 ei

/-- numpy's wrap of a negative index: v + 100000 where v < 0. -/
def wrap (v : (⟨S1700000, .i32⟩ : BufTy).Contents (Elt Ideal)) : (⟨S1700000, .i32⟩ : BufTy).Contents (Elt Ideal) :=
  select (cmpi .slt v (broadcastInDim S1700000 ![] bcast_S_S1700000 (constantI S_ 32 0#32)))
    (addi v (broadcastInDim S1700000 ![] bcast_S_S1700000 (constantI S_ 32 100000#32))) v

/-- An index list as a column of index vectors. -/
def col (v : (⟨S1700000, .i32⟩ : BufTy).Contents (Elt Ideal)) : (⟨S1700000x1, .i32⟩ : BufTy).Contents (Elt Ideal) :=
  broadcastInDim S1700000x1 ![0] bcast_S1700000_S1700000x1_0 v

/-- The number of edges pointing at each node. -/
def deg (ei : (⟨S2x1600000, .i32⟩ : BufTy).Contents (Elt Ideal)) : FVec Ideal S100000 .f32 :=
  Host.scatterAdd scatter_S100000_S1700000x1_S1700000_n_0_0_1 (broadcastInDim S100000 ![] bcast_S_S100000 (constant (F := Ideal) S_ .f32 0x00000000#32))
    (col (dst ei)) (broadcastInDim S1700000 ![] bcast_S_S1700000 (constant (F := Ideal) S_ .f32 0x3F800000#32))

/-- Where the degree is positive. -/
def degPos (ei : (⟨S2x1600000, .i32⟩ : BufTy).Contents (Elt Ideal)) : (⟨S100000, .i1⟩ : BufTy).Contents (Elt Ideal) :=
  cmpf (F := Ideal) .ogt (deg ei) (broadcastInDim S100000 ![] bcast_S_S100000 (constant (F := Ideal) S_ .f32 0x00000000#32))

/-- The scalar one. -/
def one : FVec Ideal S_ .f32 := constant (F := Ideal) S_ .f32 0x3F800000#32

/-- d where the mask holds, the scalar o elsewhere. -/
def whereOf (mask : (⟨S100000, .i1⟩ : BufTy).Contents (Elt Ideal)) (d : FVec Ideal S100000 .f32) (o : FVec Ideal S_ .f32) : FVec Ideal S100000 .f32 :=
  select mask d (broadcastInDim S100000 ![] bcast_S_S100000 (id o))

/-- 1/sqrt of the degree where it is positive, of 1 elsewhere. -/
def dinv (ei : (⟨S2x1600000, .i32⟩ : BufTy).Contents (Elt Ideal)) : FVec Ideal S100000 .f32 :=
  Host.rsqrt (whereOf (degPos ei) (deg ei) one)

/-- The edges' weights from a per-node factor d and the two index lists: d at the source times d at the target. -/
def normOf (d : FVec Ideal S100000 .f32) (s t : (⟨S1700000, .i32⟩ : BufTy).Contents (Elt Ideal)) : FVec Ideal S1700000 .f32 :=
  mulf (Host.gather gather_S100000_S1700000x1_S1700000_n_0_n_n_0_1_1 d (col (wrap s)))
    (Host.gather gather_S100000_S1700000x1_S1700000_n_0_n_n_0_1_1 d (col (wrap t)))

/-- An edge's weight: dinv at its source times dinv at its target. -/
def norm (ei : (⟨S2x1600000, .i32⟩ : BufTy).Contents (Elt Ideal)) : FVec Ideal S1700000 .f32 :=
  normOf (dinv ei) (src ei) (dst ei)

/-- One aggregation over 48 columns from the index lists s, t and the weights nrm: gather the rows of h at s, scale each
    by its weight, add it into row t. -/
def agg48Of (h : FVec Ideal S100000x48 .f32) (s t : (⟨S1700000, .i32⟩ : BufTy).Contents (Elt Ideal)) (nrm : FVec Ideal S1700000 .f32) :
    FVec Ideal S100000x48 .f32 :=
  Host.scatterAdd scatter_S100000x48_S1700000x1_S1700000x48_1_0_0_1 (broadcastInDim S100000x48 ![] bcast_S_S100000x48 (constant (F := Ideal) S_ .f32 0x00000000#32))
    (col t)
    (mulf (Host.gather gather_S100000x48_S1700000x1_S1700000x48_1_0_n_n_0_1_148 h (col (wrap s)))
      (broadcastInDim S1700000x48 ![0, 1] bcast_S1700000x1_S1700000x48_0_1 (broadcastInDim S1700000x1 ![0] bcast_S1700000_S1700000x1_0 nrm)))

/-- The same over 16 columns. -/
def agg16Of (h : FVec Ideal S100000x16 .f32) (s t : (⟨S1700000, .i32⟩ : BufTy).Contents (Elt Ideal)) (nrm : FVec Ideal S1700000 .f32) :
    FVec Ideal S100000x16 .f32 :=
  Host.scatterAdd scatter_S100000x16_S1700000x1_S1700000x16_1_0_0_1 (broadcastInDim S100000x16 ![] bcast_S_S100000x16 (constant (F := Ideal) S_ .f32 0x00000000#32))
    (col t)
    (mulf (Host.gather gather_S100000x16_S1700000x1_S1700000x16_1_0_n_n_0_1_116 h (col (wrap s)))
      (broadcastInDim S1700000x16 ![0, 1] bcast_S1700000x1_S1700000x16_0_1 (broadcastInDim S1700000x1 ![0] bcast_S1700000_S1700000x1_0 nrm)))

/-- One layer's aggregation over the graph. -/
def agg48 (h : FVec Ideal S100000x48 .f32) (ei : (⟨S2x1600000, .i32⟩ : BufTy).Contents (Elt Ideal)) : FVec Ideal S100000x48 .f32 :=
  agg48Of h (src ei) (dst ei) (norm ei)

def agg16 (h : FVec Ideal S100000x16 .f32) (ei : (⟨S2x1600000, .i32⟩ : BufTy).Contents (Elt Ideal)) : FVec Ideal S100000x16 .f32 :=
  agg16Of h (src ei) (dst ei) (norm ei)

/-- A bias vector as a one-row matrix. -/
def row48 (b : FVec Ideal S48 .f32) : FVec Ideal S1x48 .f32 := broadcastInDim S1x48 ![1] bcast_S48_S1x48_1 b
def row16 (b : FVec Ideal S16 .f32) : FVec Ideal S1x16 .f32 := broadcastInDim S1x16 ![1] bcast_S16_S1x16_1 b

/-- The first layer's aggregate. -/
def layer1 (x : FVec Ideal S100000x128 .f32) (ei : (⟨S2x1600000, .i32⟩ : BufTy).Contents (Elt Ideal)) (w1 : FVec Ideal S128x48 .f32) :
    FVec Ideal S100000x48 .f32 := agg48 (dense1 x w1) ei

/-- The second layer's aggregate. -/
def layer2 (x : FVec Ideal S100000x128 .f32) (ei : (⟨S2x1600000, .i32⟩ : BufTy).Contents (Elt Ideal)) (w1 : FVec Ideal S128x48 .f32)
    (b1 : FVec Ideal S48 .f32) (w2 : FVec Ideal S48x16 .f32) : FVec Ideal S100000x16 .f32 :=
  agg16 (dense2 (layer1 x ei w1) (row48 b1) w2) ei

/-- The network. -/
def net (x : FVec Ideal S100000x128 .f32) (ei : (⟨S2x1600000, .i32⟩ : BufTy).Contents (Elt Ideal)) (w1 : FVec Ideal S128x48 .f32)
    (b1 : FVec Ideal S48 .f32) (w2 : FVec Ideal S48x16 .f32) (b2 : FVec Ideal S16 .f32) : FVec Ideal S100000x16 .f32 :=
  softmaxRelu (layer2 x ei w1 b1 w2) (row16 b2)

end Cert.Spec

end
-- ==== Proof.LibRows.lean ====
/-
  A vector laid out as a one-row matrix, two ways, and entrywise operations on it.

  A vector of length n becomes the row [1, n] either by a reshape (both sit at row-major position q) or by a broadcast
  that places it along axis 1; the two rows are the same function. An operation applied entry by entry commutes with
  forming the row: in particular 1/sqrt(v + ε) taken on the row with ε splat over the row is the row of
  1/sqrt(v + ε) taken on the vector with ε broadcast over the vector (the kernel's rsqrt and the host's are one
  function on the extended reals). Generic in n.
-/
import proofs.«112622_j31464930410621_2_alg».proof.Proof.LibHostBroadcast
import proofs.«112622_j31464930410621_2_alg».proof.Proof.LibColumns
import Idealize.ShloMosaic.PureOps.Ideal.Laws

noncomputable section

namespace Cert.LibRows

open Idealize.ShloMosaic Idealize.ShloMosaic.ValueIdx

variable {α : Type} {n : ℕ}

/-- The reshape of a vector to a row is the broadcast of the vector along axis 1 of the row. -/
theorem reshape_row_eq_bcast (y : (⟨1, ![n]⟩ : Shape).Idx → α) (hc : (⟨1, ![n]⟩ : Shape).ShapeCasts ⟨2, ![1, n]⟩)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims) :
    shapeCast ⟨2, ![1, n]⟩ y hc = broadcastInDim ⟨2, ![1, n]⟩ dims hB y := by
  funext j
  obtain ⟨u, q, rfl⟩ : ∃ (u : Fin 1) (q : Fin n), j = ix2 u q := ⟨j 0, j 1, eq_ix2 j⟩
  rw [Cert.LibHostBroadcast.bcast_b_1b_apply dims hd hB]
  exact shapeCast_apply y hc _ _ (by
    have hu : u.val = 0 := by omega
    rw [Shape.rowMajor_val_two, Shape.rowMajor_val_one]
    show q.val = u.val * n + q.val
    rw [hu, Nat.zero_mul, Nat.zero_add])

/-- 1/sqrt(v + ε) on the row of a vector is the row of 1/sqrt(v + ε) on the vector. -/
theorem rsqrt_add_row (e : BitVec 32) (y : FVec Ideal ⟨1, ![n]⟩ .f32)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims)
    (d0 : Fin (⟨0, ![]⟩ : Shape).rank → Fin (⟨1, ![n]⟩ : Shape).rank) (h0 : (⟨0, ![]⟩ : Shape).BroadcastsInDim ⟨1, ![n]⟩ d0) :
    rsqrt (addf (broadcastInDim ⟨2, ![1, n]⟩ dims hB y) (broadcast ⟨2, ![1, n]⟩ (Scalar.ofBits (F := Ideal) .f32 e)))
      = broadcastInDim ⟨2, ![1, n]⟩ dims hB
          (Host.rsqrt (addf y (broadcastInDim ⟨1, ![n]⟩ d0 h0 (constant (F := Ideal) ⟨0, ![]⟩ .f32 e)))) := by
  funext j
  obtain ⟨u, q, rfl⟩ : ∃ (u : Fin 1) (q : Fin n), j = ix2 u q := ⟨j 0, j 1, eq_ix2 j⟩
  rw [Cert.LibHostBroadcast.bcast_b_1b_apply dims hd hB]
  show FloatOps.rsqrt (FloatOps.addf (broadcastInDim ⟨2, ![1, n]⟩ dims hB y (ix2 u q)) (Ideal.ofBits .f32 e))
    = Ideal.rsqrt (FloatOps.addf (y (ix1 q)) (Ideal.ofBits .f32 e))
  rw [Cert.LibHostBroadcast.bcast_b_1b_apply dims hd hB]
  rfl

end Cert.LibRows

end
-- ==== Proof.HostSide.lean ====
/-
  The stretches of host operations between the regions, read one at a time.

  Over any contents U of the buffers, each stretch is a fixed composition of host operations: the first builds the two
  edge lists, the degree and where it is positive; the called function keeps the degree there and puts one elsewhere;
  the third takes 1/sqrt and forms the edge weights; the stretch before the second region gathers, scales and adds the
  first product's rows and lays the first bias out as a row; the stretch before the third does the same with the second
  product and the second bias. A buffer no operation of a stretch writes is as it was.
-/
import proofs.«112622_j31464930410621_2_alg».proof.Proof.Gen.KernelIdeal.Launch
import proofs.«112622_j31464930410621_2_alg».proof.Proof.Spec
import proofs.«112622_j31464930410621_2_alg».proof.Proof.LibRows
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.StableHlo

variable (U : Valuation τ sig (Elt Ideal))

/-! ## The first stretch: edge lists and degree -/

theorem A_src : after (hostOps0 (F := Ideal)) U (Proc.devRef .tc main_v3) = Cert.Spec.src (U (Proc.devRef .tc main_arg1)) := by
  after_results <;> rfl
theorem A_dst : after (hostOps0 (F := Ideal)) U (Proc.devRef .tc main_v6) = Cert.Spec.dst (U (Proc.devRef .tc main_arg1)) := by
  after_results <;> rfl
theorem A_deg : after (hostOps0 (F := Ideal)) U (Proc.devRef .tc main_v10) = Cert.Spec.deg (U (Proc.devRef .tc main_arg1)) := by
  after_results <;> rfl
theorem A_degPos : after (hostOps0 (F := Ideal)) U (Proc.devRef .tc main_v12) = Cert.Spec.degPos (U (Proc.devRef .tc main_arg1)) := by
  after_results <;> rfl
theorem A_one : after (hostOps0 (F := Ideal)) U (Proc.devRef .tc main_cst_2) = Cert.Spec.one := by
  after_results <;> rfl
theorem A_keep_main_arg0 : after (hostOps0 (F := Ideal)) U (Proc.devRef .tc main_arg0) = U (Proc.devRef .tc main_arg0) := by
  after_results <;> rfl
theorem A_keep_main_arg2 : after (hostOps0 (F := Ideal)) U (Proc.devRef .tc main_arg2) = U (Proc.devRef .tc main_arg2) := by
  after_results <;> rfl
theorem A_keep_main_arg3 : after (hostOps0 (F := Ideal)) U (Proc.devRef .tc main_arg3) = U (Proc.devRef .tc main_arg3) := by
  after_results <;> rfl
theorem A_keep_main_arg4 : after (hostOps0 (F := Ideal)) U (Proc.devRef .tc main_arg4) = U (Proc.devRef .tc main_arg4) := by
  after_results <;> rfl
theorem A_keep_main_arg5 : after (hostOps0 (F := Ideal)) U (Proc.devRef .tc main_arg5) = U (Proc.devRef .tc main_arg5) := by
  after_results <;> rfl

/-! ## The called function: the degree where positive, one elsewhere -/

theorem B_where : after (hostOps0_1 (F := Ideal)) U (Proc.devRef .tc main_v13)
    = Cert.Spec.whereOf (U (Proc.devRef .tc main_v12)) (U (Proc.devRef .tc main_v10)) (U (Proc.devRef .tc main_cst_2)) := by
  after_results <;> rfl
theorem B_keep_main_v3 : after (hostOps0_1 (F := Ideal)) U (Proc.devRef .tc main_v3) = U (Proc.devRef .tc main_v3) := by
  after_results <;> rfl
theorem B_keep_main_v6 : after (hostOps0_1 (F := Ideal)) U (Proc.devRef .tc main_v6) = U (Proc.devRef .tc main_v6) := by
  after_results <;> rfl
theorem B_keep_main_arg0 : after (hostOps0_1 (F := Ideal)) U (Proc.devRef .tc main_arg0) = U (Proc.devRef .tc main_arg0) := by
  after_results <;> rfl
theorem B_keep_main_arg2 : after (hostOps0_1 (F := Ideal)) U (Proc.devRef .tc main_arg2) = U (Proc.devRef .tc main_arg2) := by
  after_results <;> rfl
theorem B_keep_main_arg3 : after (hostOps0_1 (F := Ideal)) U (Proc.devRef .tc main_arg3) = U (Proc.devRef .tc main_arg3) := by
  after_results <;> rfl
theorem B_keep_main_arg4 : after (hostOps0_1 (F := Ideal)) U (Proc.devRef .tc main_arg4) = U (Proc.devRef .tc main_arg4) := by
  after_results <;> rfl
theorem B_keep_main_arg5 : after (hostOps0_1 (F := Ideal)) U (Proc.devRef .tc main_arg5) = U (Proc.devRef .tc main_arg5) := by
  after_results <;> rfl

/-! ## The third stretch: the edge weights -/

theorem C_norm : after (hostOps0_2 (F := Ideal)) U (Proc.devRef .tc main_v29)
    = Cert.Spec.normOf (Host.rsqrt (U (Proc.devRef .tc main_v13))) (U (Proc.devRef .tc main_v3)) (U (Proc.devRef .tc main_v6)) := by
  after_results_simp <;> rfl
theorem C_keep_main_v3 : after (hostOps0_2 (F := Ideal)) U (Proc.devRef .tc main_v3) = U (Proc.devRef .tc main_v3) := by
  after_results <;> rfl
theorem C_keep_main_v6 : after (hostOps0_2 (F := Ideal)) U (Proc.devRef .tc main_v6) = U (Proc.devRef .tc main_v6) := by
  after_results <;> rfl
theorem C_keep_main_arg0 : after (hostOps0_2 (F := Ideal)) U (Proc.devRef .tc main_arg0) = U (Proc.devRef .tc main_arg0) := by
  after_results <;> rfl
theorem C_keep_main_arg2 : after (hostOps0_2 (F := Ideal)) U (Proc.devRef .tc main_arg2) = U (Proc.devRef .tc main_arg2) := by
  after_results <;> rfl
theorem C_keep_main_arg3 : after (hostOps0_2 (F := Ideal)) U (Proc.devRef .tc main_arg3) = U (Proc.devRef .tc main_arg3) := by
  after_results <;> rfl
theorem C_keep_main_arg4 : after (hostOps0_2 (F := Ideal)) U (Proc.devRef .tc main_arg4) = U (Proc.devRef .tc main_arg4) := by
  after_results <;> rfl
theorem C_keep_main_arg5 : after (hostOps0_2 (F := Ideal)) U (Proc.devRef .tc main_arg5) = U (Proc.devRef .tc main_arg5) := by
  after_results <;> rfl

/-! ## Before the second region: the first aggregation and the first bias row -/

theorem D_agg : after (hostOps1 (F := Ideal)) U (Proc.devRef .tc main_v43)
    = Cert.Spec.agg48Of (U (Proc.devRef .tc main_v30)) (U (Proc.devRef .tc main_v3)) (U (Proc.devRef .tc main_v6)) (U (Proc.devRef .tc main_v29)) := by
  after_results_simp <;> rfl
theorem D_row : after (hostOps1 (F := Ideal)) U (Proc.devRef .tc main_v44) = Cert.Spec.row48 (U (Proc.devRef .tc main_arg3)) := by
  after_results
  exact Cert.LibRows.reshape_row_eq_bcast _ _ _ rfl _
theorem D_keep_main_v3 : after (hostOps1 (F := Ideal)) U (Proc.devRef .tc main_v3) = U (Proc.devRef .tc main_v3) := by
  after_results <;> rfl
theorem D_keep_main_v6 : after (hostOps1 (F := Ideal)) U (Proc.devRef .tc main_v6) = U (Proc.devRef .tc main_v6) := by
  after_results <;> rfl
theorem D_keep_main_v29 : after (hostOps1 (F := Ideal)) U (Proc.devRef .tc main_v29) = U (Proc.devRef .tc main_v29) := by
  after_results <;> rfl
theorem D_keep_main_arg4 : after (hostOps1 (F := Ideal)) U (Proc.devRef .tc main_arg4) = U (Proc.devRef .tc main_arg4) := by
  after_results <;> rfl
theorem D_keep_main_arg5 : after (hostOps1 (F := Ideal)) U (Proc.devRef .tc main_arg5) = U (Proc.devRef .tc main_arg5) := by
  after_results <;> rfl

/-! ## Before the third region: the second aggregation and the second bias row -/

theorem E_agg : after (hostOps2 (F := Ideal)) U (Proc.devRef .tc main_v58)
    = Cert.Spec.agg16Of (U (Proc.devRef .tc main_v45)) (U (Proc.devRef .tc main_v3)) (U (Proc.devRef .tc main_v6)) (U (Proc.devRef .tc main_v29)) := by
  after_results_simp <;> rfl
theorem E_row : after (hostOps2 (F := Ideal)) U (Proc.devRef .tc main_v59) = Cert.Spec.row16 (U (Proc.devRef .tc main_arg5)) := by
  after_results
  exact Cert.LibRows.reshape_row_eq_bcast _ _ _ rfl _

end Cert.KernelIdeal.HostSide

end
-- ==== Proof.KernelValue.lean ====
/-
  The value of the kernel's result.

  The buffer contents at the boundaries between segments are a fold from the launch memory: three host stretches, the
  first region's write-backs, a stretch, the second region's, a stretch, the third's. Reading the fold at the buffers the
  next segment uses, from the launch onward: the edge lists and weights are functions of the edge index array alone and
  are carried unchanged past the regions; the first region leaves x W1; the next stretch aggregates it and lays b1 out
  as a row; the second region leaves max(. + b1, 0) W2; the next stretch aggregates that and lays b2 out as a row; the
  third region leaves the lane softmax of max(. + b2, 0). The result buffer so ends at the network of the six arguments.
-/
import proofs.«112622_j31464930410621_2_alg».proof.Proof.Gen.KernelIdeal.Frame
import proofs.«112622_j31464930410621_2_alg».proof.Proof.Blocks
import proofs.«112622_j31464930410621_2_alg».proof.Proof.HostSide

set_option maxRecDepth 16384

noncomputable section

namespace Cert.KernelIdeal.KernelValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem W3_src : W3 m ρ c (Proc.devRef .tc main_v3) = Cert.Spec.src (m ((c : Thread nD τ).loc main_arg1)) := by
  show after hostOps0_2 (after hostOps0_1 (after hostOps0 (W0 m ρ c))) (Proc.devRef .tc main_v3) = _
  rw [HostSide.C_keep_main_v3, HostSide.B_keep_main_v3, HostSide.A_src]
  all_goals rfl
theorem W3_dst : W3 m ρ c (Proc.devRef .tc main_v6) = Cert.Spec.dst (m ((c : Thread nD τ).loc main_arg1)) := by
  show after hostOps0_2 (after hostOps0_1 (after hostOps0 (W0 m ρ c))) (Proc.devRef .tc main_v6) = _
  rw [HostSide.C_keep_main_v6, HostSide.B_keep_main_v6, HostSide.A_dst]
  all_goals rfl
theorem W3_norm : W3 m ρ c (Proc.devRef .tc main_v29) = Cert.Spec.norm (m ((c : Thread nD τ).loc main_arg1)) := by
  show after hostOps0_2 (after hostOps0_1 (after hostOps0 (W0 m ρ c))) (Proc.devRef .tc main_v29) = _
  rw [HostSide.C_norm, HostSide.B_where, HostSide.B_keep_main_v3, HostSide.B_keep_main_v6,
    HostSide.A_degPos, HostSide.A_deg, HostSide.A_one, HostSide.A_src, HostSide.A_dst]
  all_goals rfl
theorem W3_arg0 : W3 m ρ c (Proc.devRef .tc main_arg0) = (m ((c : Thread nD τ).loc main_arg0)) := by
  show after hostOps0_2 (after hostOps0_1 (after hostOps0 (W0 m ρ c))) (Proc.devRef .tc main_arg0) = _
  rw [HostSide.C_keep_main_arg0, HostSide.B_keep_main_arg0, HostSide.A_keep_main_arg0]
  all_goals rfl
theorem W3_arg2 : W3 m ρ c (Proc.devRef .tc main_arg2) = (m ((c : Thread nD τ).loc main_arg2)) := by
  show after hostOps0_2 (after hostOps0_1 (after hostOps0 (W0 m ρ c))) (Proc.devRef .tc main_arg2) = _
  rw [HostSide.C_keep_main_arg2, HostSide.B_keep_main_arg2, HostSide.A_keep_main_arg2]
  all_goals rfl
theorem W3_arg3 : W3 m ρ c (Proc.devRef .tc main_arg3) = (m ((c : Thread nD τ).loc main_arg3)) := by
  show after hostOps0_2 (after hostOps0_1 (after hostOps0 (W0 m ρ c))) (Proc.devRef .tc main_arg3) = _
  rw [HostSide.C_keep_main_arg3, HostSide.B_keep_main_arg3, HostSide.A_keep_main_arg3]
  all_goals rfl
theorem W3_arg4 : W3 m ρ c (Proc.devRef .tc main_arg4) = (m ((c : Thread nD τ).loc main_arg4)) := by
  show after hostOps0_2 (after hostOps0_1 (after hostOps0 (W0 m ρ c))) (Proc.devRef .tc main_arg4) = _
  rw [HostSide.C_keep_main_arg4, HostSide.B_keep_main_arg4, HostSide.A_keep_main_arg4]
  all_goals rfl
theorem W3_arg5 : W3 m ρ c (Proc.devRef .tc main_arg5) = (m ((c : Thread nD τ).loc main_arg5)) := by
  show after hostOps0_2 (after hostOps0_1 (after hostOps0 (W0 m ρ c))) (Proc.devRef .tc main_arg5) = _
  rw [HostSide.C_keep_main_arg5, HostSide.B_keep_main_arg5, HostSide.A_keep_main_arg5]
  all_goals rfl

/-! ## After the first region -/

theorem W4_prod : W4 m ρ c (Proc.devRef .tc main_v30) = Cert.Dense.dense1 (m ((c : Thread nD τ).loc main_arg0)) (m ((c : Thread nD τ).loc main_arg2)) := by
  refine (W4_arr m ρ c 2).trans ((Blocks.final0 (V3 m ρ) c).trans ?_)
  show Cert.Dense.dense1 (W3 m ρ c (Proc.devRef .tc main_arg0)) (W3 m ρ c (Proc.devRef .tc main_arg2)) = _
  rw [W3_arg0, W3_arg2]

/-! ## At the second region's entry -/

theorem W5_agg : W5 m ρ c (Proc.devRef .tc main_v43) = Cert.Spec.layer1 (m ((c : Thread nD τ).loc main_arg0)) (m ((c : Thread nD τ).loc main_arg1)) (m ((c : Thread nD τ).loc main_arg2)) := by
  show after hostOps1 (W4 m ρ c) (Proc.devRef .tc main_v43) = _
  rw [HostSide.D_agg, W4_prod, W4_of_ne m ρ c main_v3 (by decide), W4_of_ne m ρ c main_v6 (by decide),
    W4_of_ne m ρ c main_v29 (by decide), W3_src, W3_dst, W3_norm]
  all_goals rfl
theorem W5_row : W5 m ρ c (Proc.devRef .tc main_v44) = Cert.Spec.row48 (m ((c : Thread nD τ).loc main_arg3)) := by
  show after hostOps1 (W4 m ρ c) (Proc.devRef .tc main_v44) = _
  rw [HostSide.D_row, W4_of_ne m ρ c main_arg3 (by decide), W3_arg3]
theorem W5_arg4 : W5 m ρ c (Proc.devRef .tc main_arg4) = (m ((c : Thread nD τ).loc main_arg4)) := by
  show after hostOps1 (W4 m ρ c) (Proc.devRef .tc main_arg4) = _
  rw [HostSide.D_keep_main_arg4, W4_of_ne m ρ c main_arg4 (by decide), W3_arg4]
theorem W5_arg5 : W5 m ρ c (Proc.devRef .tc main_arg5) = (m ((c : Thread nD τ).loc main_arg5)) := by
  show after hostOps1 (W4 m ρ c) (Proc.devRef .tc main_arg5) = _
  rw [HostSide.D_keep_main_arg5, W4_of_ne m ρ c main_arg5 (by decide), W3_arg5]
theorem W5_src : W5 m ρ c (Proc.devRef .tc main_v3) = Cert.Spec.src (m ((c : Thread nD τ).loc main_arg1)) := by
  show after hostOps1 (W4 m ρ c) (Proc.devRef .tc main_v3) = _
  rw [HostSide.D_keep_main_v3, W4_of_ne m ρ c main_v3 (by decide), W3_src]
theorem W5_dst : W5 m ρ c (Proc.devRef .tc main_v6) = Cert.Spec.dst (m ((c : Thread nD τ).loc main_arg1)) := by
  show after hostOps1 (W4 m ρ c) (Proc.devRef .tc main_v6) = _
  rw [HostSide.D_keep_main_v6, W4_of_ne m ρ c main_v6 (by decide), W3_dst]
theorem W5_norm : W5 m ρ c (Proc.devRef .tc main_v29) = Cert.Spec.norm (m ((c : Thread nD τ).loc main_arg1)) := by
  show after hostOps1 (W4 m ρ c) (Proc.devRef .tc main_v29) = _
  rw [HostSide.D_keep_main_v29, W4_of_ne m ρ c main_v29 (by decide), W3_norm]

/-! ## After the second region -/

theorem W6_prod : W6 m ρ c (Proc.devRef .tc main_v45)
    = Cert.Dense.dense2 (Cert.Spec.layer1 (m ((c : Thread nD τ).loc main_arg0)) (m ((c : Thread nD τ).loc main_arg1)) (m ((c : Thread nD τ).loc main_arg2))) (Cert.Spec.row48 (m ((c : Thread nD τ).loc main_arg3))) (m ((c : Thread nD τ).loc main_arg4)) := by
  refine (W6_arr m ρ c 3).trans ((Blocks.final1 (V5 m ρ) c).trans ?_)
  show Cert.Dense.dense2 (W5 m ρ c (Proc.devRef .tc main_v43)) (W5 m ρ c (Proc.devRef .tc main_v44)) (W5 m ρ c (Proc.devRef .tc main_arg4)) = _
  rw [W5_agg, W5_row, W5_arg4]

/-! ## At the third region's entry -/

theorem W7_agg : W7 m ρ c (Proc.devRef .tc main_v58) = Cert.Spec.layer2 (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps2 (W6 m ρ c) (Proc.devRef .tc main_v58) = _
  rw [HostSide.E_agg, W6_prod, W6_of_ne m ρ c main_v3 (by decide), W6_of_ne m ρ c main_v6 (by decide),
    W6_of_ne m ρ c main_v29 (by decide), W5_src, W5_dst, W5_norm]
  all_goals rfl
theorem W7_row : W7 m ρ c (Proc.devRef .tc main_v59) = Cert.Spec.row16 (m ((c : Thread nD τ).loc main_arg5)) := by
  show after hostOps2 (W6 m ρ c) (Proc.devRef .tc main_v59) = _
  rw [HostSide.E_row, W6_of_ne m ρ c main_arg5 (by decide), W5_arg5]

/-! ## The result -/

/-- The result buffer after the last region is the network of the six arguments as launched. -/
theorem value : W8 m ρ c (Proc.devRef .tc main_v60) = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((Blocks.final2 (V7 m ρ) c).trans ?_)
  show Cert.Dense.softmaxRelu (W7 m ρ c (Proc.devRef .tc main_v58)) (W7 m ρ c (Proc.devRef .tc main_v59)) = _
  rw [W7_agg, W7_row]
  all_goals rfl

end Cert.KernelIdeal.KernelValue

end
-- ==== Proof.RefValue.lean ====
/-
  The reference's result is the network of its arguments.

  The reference's run ends with its result buffer at the composed term of its 133 host operations. That term is the
  network spelled out: the same edge lists, degree, weights (computed twice, once per layer, from the same edge index
  array), products, aggregations, bias rows, relus and lane softmax, so the two agree by unfolding the definitions.
-/
import proofs.«112622_j31464930410621_2_alg».proof.Proof.RefRun
import proofs.«112622_j31464930410621_2_alg».proof.Proof.Spec

set_option maxRecDepth 65536

noncomputable section

namespace Cert.ReferenceIdeal.RefValue

open Cert.ReferenceIdeal Cert.ReferenceIdeal.Gen
open Idealize.ShloMosaic Idealize.ShloMosaic.TcCoe Idealize.SL.Sem

set_option maxHeartbeats 4000000 in
theorem result_eq (m : (ℓ : Loc nD τ sig) → Buf (Elt Ideal) ℓ) (c : Dev nD) :
    Cert.ReferenceIdeal.ValueP.res_main_v99 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v99
  rfl

end Cert.ReferenceIdeal.RefValue

end
-- ==== Proof.lean ====
/-
  A two-layer graph convolution with a softmax head, the tiled kernel against the plain reference.

  Both programs compute softmax(relu(agg(relu(agg(x W1) + b1) W2) + b2)), where agg gathers the rows of a matrix at
  the edges' sources, scales each by the symmetric degree weight of its edge and adds it into the row of the edge's
  target. The kernel runs the three dense stages in row tiles of 20000 nodes; the reference runs them whole. Over the
  extended reals a stage of a row tile is that row tile of the stage, the five tiles cover the array, and the host
  operations between the stages are the same on both sides; no finiteness is needed. The three frames: each program
  terminates without fault and leaves its arguments as launched. The idealization rewrote nothing.
-/
import proofs.«112622_j31464930410621_2_alg».proof.Defs
import proofs.«112622_j31464930410621_2_alg».proof.Proof.Gen.Kernel
import proofs.«112622_j31464930410621_2_alg».proof.Proof.Gen.Kernel.Frame
import proofs.«112622_j31464930410621_2_alg».proof.Proof.Gen.KernelIdeal
import proofs.«112622_j31464930410621_2_alg».proof.Proof.Gen.KernelIdeal.Frame
import proofs.«112622_j31464930410621_2_alg».proof.Proof.Gen.ReferenceIdeal
import proofs.«112622_j31464930410621_2_alg».proof.Proof.Gen.Pre_finite_inputs
import proofs.«112622_j31464930410621_2_alg».proof.Proof.KernelRun
import proofs.«112622_j31464930410621_2_alg».proof.Proof.KernelValue
import proofs.«112622_j31464930410621_2_alg».proof.Proof.RefRun
import proofs.«112622_j31464930410621_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with their result at the network of those
    arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    have ha := hagree c
    exact (Cert.ReferenceIdeal.RefValue.result_eq m' c).trans
      (congr (congr (congr (congr (congr (congrArg Cert.Spec.net ha.1) ha.2.1) ha.2.2.1) ha.2.2.2.1) ha.2.2.2.2.1) ha.2.2.2.2.2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
